-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩
abbrev S10000x64 : Shape := ⟨2, ![10000, 64]⟩

abbrev nBuf : Space → Nat
  | .hbm => 62
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000x64, .f32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S50000x64, .f32⟩
  | .hbm, ⟨59, _⟩ => ⟨S50000x64, .bf16⟩
  | .hbm, ⟨60, _⟩ => ⟨S1x64, .f32⟩
  | .hbm, ⟨61, _⟩ => ⟨S50000x64, .f32⟩
  | .local _ .vmem, ⟨0, _⟩ => ⟨S10000x64, .bf16⟩
  | .local _ .vmem, ⟨1, _⟩ => ⟨S10000x64, .bf16⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bitsLt_bf16_f32 : FTy.bits .bf16 < FTy.bits .f32
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .bf16 = 32 ∨ (Rect.block (s := S50000x64) S10000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v44) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000x64, .f32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S50000x64, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Projection.lean ====
/-
  The dense projection both programs end with, as ONE function of the propagated node features.

  After two rounds of message passing the node features are a matrix `X` of 50000 rows (nodes) and 64 columns
  (features). Both programs then apply the same affine map to every row: with weights `W` (64 × 64) and bias `b`
  (64 entries),
      result[r, j] = Σ_k X[r, k] · W[k, j] + b[j]      (k over the 64 features),
  the sum and the products taken on the extended reals. Nothing here depends on how `X` was obtained, nor on how the
  rows are grouped when the products are formed: a row's result reads that row of `X` only.
-/
import Idealize.ShloMosaic.PureOps.Ideal
import Idealize.ShloMosaic.Lib.ValueIdx

noncomputable section

namespace Cert.Proof.Projection

open Idealize.ShloMosaic Idealize.ShloMosaic.ValueIdx

/-- Row `i 0`, channel `i 1` of the projected features: the inner product of row `i 0` of `X` with column `i 1` of
    `W`, plus entry `i 1` of the bias. -/
def projected (X : FVec Ideal ⟨2, ![50000, 64]⟩ .f32) (W : FVec Ideal ⟨2, ![64, 64]⟩ .f32) (b : FVec Ideal ⟨1, ![64]⟩ .f32) :
    FVec Ideal ⟨2, ![50000, 64]⟩ .f32 :=
  fun i => (∑ k : Fin 64, X (ix2 (i 0) k) * W (ix2 k (i 1))) + b (ix1 (i 1))

theorem projected_apply (X : FVec Ideal ⟨2, ![50000, 64]⟩ .f32) (W : FVec Ideal ⟨2, ![64, 64]⟩ .f32) (b : FVec Ideal ⟨1, ![64]⟩ .f32)
    (i : (⟨2, ![50000, 64]⟩ : Shape).Idx) :
    projected X W b i = (∑ k : Fin 64, X (ix2 (i 0) k) * W (ix2 k (i 1))) + b (ix1 (i 1)) := rfl

end Cert.Proof.Projection

end
-- ==== Proof.Propagation.lean ====
/-
  The idealized kernel's host prelude: two rounds of message passing over the edge list, and what the region's
  input windows find when it is entered.

  One round sends along every edge e = (src, dst) the source node's feature row scaled by the edge's weight, and
  adds up at every node what arrives there:
      (propagate x)[n, :] = Σ_{e : dst e = n} attr[e] · x[src e, :].
  Node ids below zero are first wrapped by the node count (50000), as array indexing does. The features the dense
  projection reads are `propagate (propagate x)`. The region's first window is over these features after a change of
  float format (the identity on the extended reals, kept as written for any float instance), its second over the
  weight matrix as launched, its third over the bias re-laid as one row of 64.
-/
import proofs.«108180_j12584254177709_2_alg».proof.Proof.Gen.KernelIdeal.Frame
import Idealize.ShloMosaic.Lib.StableHlo.Run

noncomputable section

namespace Cert.KernelIdeal.Propagation

open Cert.KernelIdeal Cert.KernelIdeal.Gen Idealize.ShloMosaic Idealize.ShloMosaic.TcCoe Idealize.SL.Sem
open Idealize.ShloMosaic.StableHlo

variable {F : FTy → Type} [FloatOps F]

/-- The source node of every edge (row 0 of the edge list), negative ids wrapped by the node count, as a column of
    row indices. -/
def sourceIds (x1 : (⟨S2x800000, .i32⟩ : BufTy).Contents (Elt F)) : (⟨S800000x1, .i32⟩ : BufTy).Contents (Elt F) :=
  broadcastInDim S800000x1 ![0] bcast_S800000_S800000x1_0 (select (cmpi .slt (shapeCast _ (extractStridedSlice S1x800000 ![0, 0] (x1) slices_S2x800000_S1x800000_0_0) shapeCasts_S1x800000_S800000) (broadcastInDim S800000 ![] bcast_S_S800000 (constantI S_ 32 0#32))) (addi (shapeCast _ (extractStridedSlice S1x800000 ![0, 0] (x1) slices_S2x800000_S1x800000_0_0) shapeCasts_S1x800000_S800000) (broadcastInDim S800000 ![] bcast_S_S800000 (constantI S_ 32 50000#32))) (shapeCast _ (extractStridedSlice S1x800000 ![0, 0] (x1) slices_S2x800000_S1x800000_0_0) shapeCasts_S1x800000_S800000))

/-- The destination node of every edge (row 1 of the edge list), wrapped likewise. -/
def targetIds (x1 : (⟨S2x800000, .i32⟩ : BufTy).Contents (Elt F)) : (⟨S800000x1, .i32⟩ : BufTy).Contents (Elt F) :=
  broadcastInDim S800000x1 ![0] bcast_S800000_S800000x1_0 (select (cmpi .slt (shapeCast _ (extractStridedSlice S1x800000 ![1, 0] (x1) slices_S2x800000_S1x800000_1_0) shapeCasts_S1x800000_S800000) (broadcastInDim S800000 ![] bcast_S_S800000 (constantI S_ 32 0#32))) (addi (shapeCast _ (extractStridedSlice S1x800000 ![1, 0] (x1) slices_S2x800000_S1x800000_1_0) shapeCasts_S1x800000_S800000) (broadcastInDim S800000 ![] bcast_S_S800000 (constantI S_ 32 50000#32))) (shapeCast _ (extractStridedSlice S1x800000 ![1, 0] (x1) slices_S2x800000_S1x800000_1_0) shapeCasts_S1x800000_S800000))

/-- One round of message passing: gather each edge's source row, scale it by the edge weight, and add the messages
    up per destination node into a zero matrix. -/
def propagate (x : (⟨S50000x64, .f32⟩ : BufTy).Contents (Elt F)) (x1 : (⟨S2x800000, .i32⟩ : BufTy).Contents (Elt F))
    (x2 : (⟨S800000, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32)) (targetIds (F := F) x1) (mulf (broadcastInDim S800000x64 ![0, 1] bcast_S800000x1_S800000x64_0_1 (broadcastInDim S800000x1 ![0] bcast_S800000_S800000x1_0 (x2))) (Host.gather gather_S50000x64_S800000x1_S800000x64_1_0_n_n_0_1_164 (x) (sourceIds (F := F) x1)))

/-- The node features the dense projection reads: two rounds. -/
def features (x0 : (⟨S50000x64, .f32⟩ : BufTy).Contents (Elt F)) (x1 : (⟨S2x800000, .i32⟩ : BufTy).Contents (Elt F))
    (x2 : (⟨S800000, .f32⟩ : BufTy).Contents (Elt F)) : (⟨S50000x64, .f32⟩ : BufTy).Contents (Elt F) :=
  propagate (F := F) (propagate (F := F) x0 x1 x2) x1 x2

variable (m : (ℓ : Loc nD τ sig) → Buf (Elt F) ℓ)

set_option maxRecDepth 8192 in
set_option maxHeartbeats 2000000 in
/-- The first window's array when the region is entered: the twice-propagated features of the launch contents, in the
    narrower float format. -/
theorem entry_features (c : Dev nD) :
    (V m c main_v44 : (⟨S50000x64, .bf16⟩ : BufTy).Contents (Elt F))
      = truncf .bf16 (features (F := F) (m ((c : Thread nD τ).loc main_arg0)) (m ((c : Thread nD τ).loc main_arg1)) (m ((c : Thread nD τ).loc main_arg2))) bitsLt_bf16_f32 := by
  dsimp only [V, hostOps0]
  after_results_simp
  rfl

set_option maxRecDepth 8192 in
set_option maxHeartbeats 2000000 in
/-- The third window's array when the region is entered: the bias as launched, re-laid as one row. -/
theorem entry_bias (c : Dev nD) :
    (V m c main_v45 : (⟨S1x64, .f32⟩ : BufTy).Contents (Elt F))
      = shapeCast S1x64 (m ((c : Thread nD τ).loc main_arg4)) shapeCasts_S64_S1x64 := by
  dsimp only [V, hostOps0]
  after_results_simp
  rfl

end Cert.KernelIdeal.Propagation

end
-- ==== Proof.BlockProduct.lean ====
/-
  What the kernel body computes for one block of rows, read index by index on the extended reals.

  The body loads a block of 10000 feature rows `x` (10000 × 64), the weight matrix `w` (64 × 64) and the bias row
  `β` (1 × 64), and stores `x · w + β` with the bias repeated down the rows. The matrix product accumulates into a
  zero matrix, so its entry (p, q) is the plain sum Σ_k x[p, k] · w[k, q]; the changes of float format around it and
  the casts to the same shape are the identity. Hence the stored entry (p, q) is
      Σ_k x[p, k] · w[k, q] + β[0, q].
  If the block's rows are rows of a feature matrix `X`, `w` is `W` and `β[0, ·]` is `b`, that is the dense projection
  of `X` at the array index the block entry sits at.
-/
import proofs.«108180_j12584254177709_2_alg».proof.Proof.Gen.KernelIdeal.Skeleton
import proofs.«108180_j12584254177709_2_alg».proof.Proof.Projection
import Idealize.ShloMosaic.PureOps.Ideal.Laws
import Idealize.ShloMosaic.Lib.Pipeline.Value
import Idealize.ShloMosaic.Lib.ValueIdx

noncomputable section

namespace Cert.KernelIdeal.BlockProduct

open Cert.KernelIdeal Cert.KernelIdeal.Gen
open Idealize.ShloMosaic Idealize.ShloMosaic.ValueIdx Cert.Proof.Projection

/-! ## The operand indices of the block product -/

theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at entry `j` = (row, column): the sum over the 64 features of the
    left operand at (row, k) times the right operand at (k, column). -/
theorem product_apply (l : FVec Ideal S10000x64 .bf16) (r : FVec Ideal S64x64 .bf16) (j : S10000x64.Idx) :
    matmul dot_S10000x64_S64x64_S10000x64_1_0_0_1_n_n none l r (constant (F := Ideal) S10000x64 .f32 0x00000000#32) j
      = ∑ k : Fin 64, l (ix2 (j 0) k) * r (ix2 k (j 1)) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = ix2 (j 0) k := funext fun a => Fin.ext (by
    match a with
    | ⟨0, _⟩ => exact lhs_row _ _
    | ⟨1, _⟩ => exact (lhs_contr _ _).trans hk)
  have er : dot_S10000x64_S64x64_S10000x64_1_0_0_1_n_n.rhsIdx j ((ValueIdx.contrEquiv1 dot_S10000x64_S64x64_S10000x64_1_0_0_1_n_n 64 rfl rfl).symm k) = ix2 k (j 1) := funext fun a => Fin.ext (by
    match a with
    | ⟨0, _⟩ => exact (rhs_contr _ _).trans hk
    | ⟨1, _⟩ => exact rhs_col _ _)
  rw [el, er]
  rfl

/-- The bias row repeated down the rows, at entry `j`: the bias at column `j 1`. -/
theorem bias_apply (β : FVec Ideal S1x64 .f32) (j : S10000x64.Idx) :
    broadcastTo S10000x64 β broadcasts_S1x64_S10000x64 j = β (ix2 (0 : Fin 1) (j 1)) :=
  broadcastTo_apply β broadcasts_S1x64_S10000x64 j (ix2 (0 : Fin 1) (j 1)) (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- The stored value at entry `j` of the block, from the three loaded blocks. -/
theorem payload_apply (x0 : Vec Ideal S10000x64 .bf16) (x1 : Vec Ideal S64x64 .f32) (x2 : Vec Ideal S1x64 .f32) (j : S10000x64.Idx) :
    k0_pay1 (F := Ideal) x0 x1 x2 j = (∑ k : Fin 64, x0 (ix2 (j 0) k) * x1 (ix2 k (j 1))) + x2 (ix2 (0 : Fin 1) (j 1)) := by
  unfold k0_pay1
  refine (addf_apply _ _ j).trans ?_
  refine congrArg₂ (· + ·) ((product_apply _ _ j).trans ?_) ?_
  · rw [shapeCast_self]; rfl
  · rw [shapeCast_self]; exact bias_apply x2 j

/-- So, when the loaded rows are rows of `X`, the loaded weights are `W` and the loaded bias row is `b` — at the array
    index `r` the block entry `j` sits at —, the stored value is the dense projection of `X` at `r`. -/
theorem payload_eq_projected (x0 : Vec Ideal S10000x64 .bf16) (x1 : Vec Ideal S64x64 .f32) (x2 : Vec Ideal S1x64 .f32)
    (X : FVec Ideal ⟨2, ![50000, 64]⟩ .f32) (W : FVec Ideal ⟨2, ![64, 64]⟩ .f32) (b : FVec Ideal ⟨1, ![64]⟩ .f32)
    (j : S10000x64.Idx) (r : S50000x64.Idx)
    (hX : ∀ k : Fin 64, x0 (ix2 (j 0) k) = X (ix2 (r 0) k))
    (hW : ∀ k : Fin 64, x1 (ix2 k (j 1)) = W (ix2 k (r 1)))
    (hb : x2 (ix2 (0 : Fin 1) (j 1)) = b (ix1 (r 1))) :
    k0_pay1 (F := Ideal) x0 x1 x2 j = projected X W b r := by
  rw [payload_apply, projected_apply, hb]
  exact congrArg (· + b (ix1 (r 1))) (Finset.sum_congr rfl fun k _ => by rw [hX k, hW k])

end Cert.KernelIdeal.BlockProduct

end
-- ==== Proof.RowBlocks.lean ====
/-
  From blocks to the array: after the idealized kernel's run its result array is the dense projection of the
  twice-propagated features, as one function of the launch contents.

  The grid has five points. Point t stages rows 10000·t … 10000·t + 9999 of the feature matrix (all 64 columns), the
  whole weight matrix and the whole bias row, and writes back rows 10000·t … 10000·t + 9999 of the result. A row's
  projection reads that row of the features only, so what point t writes back is exactly block t of the projection of
  the WHOLE feature matrix; and the five row blocks cover the 50000 rows (row r lies in block r / 10000). So the array
  ends holding the projection everywhere.
-/
import proofs.«108180_j12584254177709_2_alg».proof.Proof.Gen.KernelIdeal.Value
import proofs.«108180_j12584254177709_2_alg».proof.Proof.Propagation
import proofs.«108180_j12584254177709_2_alg».proof.Proof.BlockProduct
import proofs.«108180_j12584254177709_2_alg».proof.Proof.Projection

set_option maxRecDepth 16384

noncomputable section

namespace Cert.KernelIdeal.RowBlocks

open Cert.KernelIdeal Cert.KernelIdeal.Gen Cert.KernelIdeal.Propagation Cert.KernelIdeal.BlockProduct
open Idealize.ShloMosaic Idealize.ShloMosaic.TcCoe Idealize.SL.Sem Idealize.ShloMosaic.ValueIdx Cert.Proof.Projection
open Idealize.ShloMosaic.Pipeline (Dat)

variable (m : (ℓ : Loc nD τ sig) → Buf (Elt Ideal) ℓ) (ρ : Dev nD → PrngReg)

/-- The node features after two rounds of message passing, of the launch contents on core `c`. -/
abbrev feat (c : Dev nD) : FVec Ideal ⟨2, ![50000, 64]⟩ .f32 :=
  features (F := Ideal) (m ((c : Thread nD τ).loc main_arg0)) (m ((c : Thread nD τ).loc main_arg1)) (m ((c : Thread nD τ).loc main_arg2))

/-- The whole result array: the dense projection of those features by the launched weights and bias. -/
abbrev result (c : Dev nD) : FVec Ideal ⟨2, ![50000, 64]⟩ .f32 :=
  projected (feat m c) (m ((c : Thread nD τ).loc main_arg3)) (m ((c : Thread nD τ).loc main_arg4))

theorem zero_offsets : (![0, 0] : Fin 2 → Nat) = fun _ => 0 := funext fun a => by fin_cases a <;> rfl

/-- The printed index maps over the five points: the feature window moves down the rows with the result window, never
    sideways; the weight and bias windows stay at the origin; the result's row-block index is below five. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 4 :=
  (by decide +kernel : ∀ t : Fin grid0.N, _)

/-- Every one of the five row blocks is some point's. -/
theorem block_of_rows : ∀ q : Fin 5, ∃ t : Fin cfg0.N, win0_3.index t = ![q.val, 0] :=
  (by decide +kernel : ∀ q : Fin 5, ∃ t : Fin grid0.N, win0_3.index t = ![q.val, 0])

/-! ## Reading the staged blocks

Each input window's block at point `t` is its array as the region finds it, read through the block's view; the arrays
are the features (in the narrower format, the identity here), the launched weights, and the bias re-laid as one row. -/

/-- A staged feature entry is the entry of the whole feature matrix its block index sits at. -/
theorem feature_rows (c : Dev nD) (t : Fin cfg0.N) (z : ((cfg0.win 0).xblock (cfg0.grid.coords t)).Idx) :
    iblk m c 0 t z = feat m c (((cfg0.win 0).blk t).view.emb z) := by
  unfold iblk
  rw [show V m c (Pipeline.arrRef spec0 0) = truncf .bf16 (feat m c) bitsLt_bf16_f32 from entry_features m c]
  exact (View.read_apply _ _).trans ((cast_eq _ _).trans (truncf_apply _ _ _))

/-- A staged weight entry is the launched weight matrix's. -/
theorem weight_block (c : Dev nD) (t : Fin cfg0.N) (z : ((cfg0.win 1).xblock (cfg0.grid.coords t)).Idx) :
    iblk m c 1 t z = (m ((c : Thread nD τ).loc main_arg3)) (((cfg0.win 1).blk t).view.emb z) := by
  unfold iblk
  rw [show V m c (Pipeline.arrRef spec0 1) = (m ((c : Thread nD τ).loc main_arg3)) from V_main_arg3 m c]
  exact (View.read_apply _ _).trans (cast_eq _ _)

/-- A staged bias entry is the re-laid bias row's. -/
theorem bias_block (c : Dev nD) (t : Fin cfg0.N) (z : ((cfg0.win 2).xblock (cfg0.grid.coords t)).Idx) :
    iblk m c 2 t z = shapeCast S1x64 (m ((c : Thread nD τ).loc main_arg4)) shapeCasts_S64_S1x64 (((cfg0.win 2).blk t).view.emb z) := by
  unfold iblk
  rw [show V m c (Pipeline.arrRef spec0 2) = shapeCast S1x64 (m ((c : Thread nD τ).loc main_arg4)) shapeCasts_S64_S1x64 from entry_bias m c]
  exact (View.read_apply _ _).trans (cast_eq _ _)

/-- A block of values `P` is what reading the result window's block off an array `G` gives, as soon as each entry of
    `P` is `G` at the array index that entry sits at. -/
theorem written_back_eq (t : Fin cfg0.N) (P : Vec Ideal S10000x64 .f32) (G : FVec Ideal ⟨2, ![50000, 64]⟩ .f32)
    (h : ∀ y : ((win0 3).xblock (grid0.coords t)).Idx,
      P ((win0 3).xinj (grid0.coords t) y) = G (((View.whole main_v46).slice ((win0 3).rect t)).emb y)) :
    (win0 3).cut (grid0.coords t) P = ((View.whole main_v46).slice ((win0 3).rect t)).read (Elt Ideal) G := by
  funext y
  have hread : ((View.whole main_v46).slice ((win0 3).rect t)).read (Elt Ideal) G y
      = G (((View.whole main_v46).slice ((win0 3).rect t)).emb y) :=
    (View.read_apply _ _).trans (cast_eq _ _)
  exact (h y).trans hread.symm

/-- What point `t` writes back is block `t` of the whole projection. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S10000x64) zero_offsets, View.ld_unit_zero (S := S64x64) zero_offsets,
    View.ld_unit_zero (S := S1x64) zero_offsets]
  obtain ⟨e0, e1, e2, e3, e4, e5, e6, e7⟩ := block_indices t
  refine written_back_eq t _ _ (fun y => ?_)
  refine payload_eq_projected (iblk m c 0 t) (iblk m c 1 t) (iblk m c 2 t) (feat m c) (m ((c : Thread nD τ).loc main_arg3)) (m ((c : Thread nD τ).loc main_arg4))
    ((win0 3).xinj (grid0.coords t) y) (((View.whole main_v46).slice ((win0 3).rect t)).emb y) (fun k => ?_) (fun k => ?_) ?_
  · -- a feature row of the block is the same row of the whole matrix, 10000·t rows down
    refine (feature_rows m c t _).trans (congrArg (feat m c) (funext fun a => Fin.ext ?_))
    match a with
    | ⟨0, _⟩ => show win0_0.index t (0 : Fin 2) * 10000 + 1 * (y 0).val = win0_3.index t (0 : Fin 2) * 10000 + 1 * (y 0).val; omega
    | ⟨1, _⟩ => show win0_0.index t (1 : Fin 2) * 64 + 1 * k.val = k.val; omega
  · -- the weight block is the whole weight matrix
    refine (weight_block m c t _).trans (congrArg (m ((c : Thread nD τ).loc main_arg3)) (funext fun a => Fin.ext ?_))
    match a with
    | ⟨0, _⟩ => show win0_1.index t (0 : Fin 2) * 64 + 1 * k.val = k.val; omega
    | ⟨1, _⟩ => show win0_1.index t (1 : Fin 2) * 64 + 1 * (y 1).val = win0_3.index t (1 : Fin 2) * 64 + 1 * (y 1).val; omega
  · -- the bias block is the bias, re-laid as one row: entry (0, q) of the row is entry q of the bias
    refine (bias_block m c t _).trans (shapeCast_apply (s := S64) (t := S1x64) (m ((c : Thread nD τ).loc main_arg4)) shapeCasts_S64_S1x64 _
      (ix1 ((((View.whole main_v46).slice ((win0 3).rect t)).emb y) 1)) ?_)
    rw [Shape.rowMajor_val_one, Shape.rowMajor_val_two]
    show win0_3.index t (1 : Fin 2) * 64 + 1 * (y 1).val = (win0_2.index t (0 : Fin 2) * 1 + 1 * 0) * 64 + (win0_2.index t (1 : Fin 2) * 64 + 1 * (y 1).val)
    omega

/-- An index of the array is in point `t`'s block iff each coordinate is in the block's range on its axis. -/
theorem mem_block (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v46).slice (win0_3.rect t)).set ↔ _
  rw [View.set_slice_whole, Rect.mem_set_unit]
  exact Iff.rfl

/-- Every index of the result array lies in some point's block: row `r` in the block of point `r / 10000`. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := block_of_rows ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The result array after the run is the whole projection. -/
theorem final (c : Dev nD) : (dats m 0 c).arrAt 3 cfg0.N = result m c :=
  (dats m 0 c).arrAt_eq_of_cover 3 (result m c) (fun t _ => flushed_eq m c t) covered

/-- The idealized kernel's run: every weakly fair execution terminates with the result array at the dense projection
    of the twice-propagated launch features, the arguments unchanged. -/
theorem run : θ_run defs (onTc (τ := τ) (main (F := Ideal))) ⟨m, fun _ => 0, ρ⟩ fun r => ∀ c : Dev nD,
      r.2.mem ((c : Thread nD τ).loc main_v46) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RowBlocks

end
-- ==== Proof.ReferenceProjection.lean ====
/-
  The reference's result, read index by index, is the dense projection of its propagated features.

  The reference forms `dot_general(X, W)` over the whole 50000 × 64 feature matrix and adds the bias broadcast over
  the rows. On the extended reals the product's entry (r, j) is the plain sum Σ_k X[r, k] · W[k, j], and the broadcast
  bias at (r, j) is b[j]: that is `projected X W b` at (r, j), where `X` is the stage the second scatter-add writes.
-/
import proofs.«108180_j12584254177709_2_alg».proof.Proof.Gen.ReferenceIdeal.Read
import proofs.«108180_j12584254177709_2_alg».proof.Proof.Projection

noncomputable section

namespace Cert.ReferenceIdeal.Projected

open Cert.ReferenceIdeal Cert.ReferenceIdeal.Gen Cert.ReferenceIdeal.Read
open Idealize.ShloMosaic Idealize.ShloMosaic.ValueIdx Cert.Proof.Projection

/-- The last stage of the reference is the projection of the stage its second round of message passing writes. -/
theorem result_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal))
    (x4 : (⟨S64, .f32⟩ : BufTy).Contents (Elt Ideal)) :
    val_main_v47 (F := Ideal) x0 x1 x2 x3 x4 = projected (val_main_v43 (F := Ideal) x0 x1 x2) x3 x4 := by
  funext i
  -- the operand indices the generated reading names are (row, k), (k, channel) and the channel alone
  have el : ∀ k : Fin 64, lidx_main_v44 i k = ix2 (i 0) k := fun k =>
    funext fun a => Fin.ext (by match a with | ⟨0, _⟩ => rfl | ⟨1, _⟩ => rfl)
  have er : ∀ k : Fin 64, ridx_main_v44 i k = ix2 k (i 1) := fun k =>
    funext fun a => Fin.ext (by match a with | ⟨0, _⟩ => rfl | ⟨1, _⟩ => rfl)
  have eb : idx_main_v45 (idx_main_v46 i) = ix1 (i 1) :=
    funext fun a => Fin.ext (by match a with | ⟨0, _⟩ => rfl)
  rw [val_main_v47_apply, val_main_v44_apply, val_main_v46_apply, val_main_v45_apply, projected_apply]
  simp only [el, er, eb, Ideal.addf_def]
  rfl

end Cert.ReferenceIdeal.Projected

end
-- ==== Proof.SamePropagation.lean ====
/-
  Both programs propagate the node features by the same operations.

  The idealized kernel's host prelude and the reference's first 54 operations are, line for line, the same slices,
  wraps of negative node ids, gathers, scalings and scatter-adds into a zero matrix, with the same literals. Each
  program states its own copy of the shapes and of the gather and scatter dimension records; the copies have equal
  fields, so the two composed terms are one term and the equation holds by unfolding both sides.
-/
import proofs.«108180_j12584254177709_2_alg».proof.Proof.Propagation
import proofs.«108180_j12584254177709_2_alg».proof.Proof.Gen.ReferenceIdeal.Read

noncomputable section

namespace Cert.Proof.SamePropagation

open Idealize.ShloMosaic

variable {F : FTy → Type} [FloatOps F]

set_option maxRecDepth 8192 in
/-- The features the kernel's region reads are the stage the reference's second scatter-add writes. -/
theorem features_eq (x0 : (⟨Cert.ReferenceIdeal.S50000x64, .f32⟩ : BufTy).Contents (Elt F))
    (x1 : (⟨Cert.ReferenceIdeal.S2x800000, .i32⟩ : BufTy).Contents (Elt F))
    (x2 : (⟨Cert.ReferenceIdeal.S800000, .f32⟩ : BufTy).Contents (Elt F)) :
    Cert.ReferenceIdeal.Read.val_main_v43 (F := F) x0 x1 x2 = Cert.KernelIdeal.Propagation.features (F := F) x0 x1 x2 := rfl

end Cert.Proof.SamePropagation

end
-- ==== Proof.lean ====
/-
  A graph propagation followed by a dense projection: the tiled kernel against the plain jnp reference, equal over
  the extended reals.

  Both programs first run two rounds of message passing over the edge list on the host — gather each edge's source
  row, scale it by the edge weight, scatter-add per destination node into a zero matrix — by the same operations with
  the same literals, so the propagated node features `X` (50000 × 64) are one term on both sides
  (Proof/SamePropagation.lean, over Proof/Propagation.lean).

  They differ only in how the last affine map `X · W + b` is formed. The reference takes one matrix product over all
  50000 rows and adds the bias broadcast over the rows. The kernel narrows the float format of `X` and of `W` (the
  identity on the extended reals), walks five blocks of 10000 rows, and for each forms the block's product into a zero
  accumulator and adds the bias row. Entry (r, j) of either is
      Σ_k X[r, k] · W[k, j] + b[j]
  (Proof/Projection.lean): the reference's by reading its last four operations at an index
  (Proof/ReferenceProjection.lean), the kernel's because the body's stored value at a block entry is that expression of
  the block's own rows (Proof/BlockProduct.lean), a row's value reads that row only, and the five row blocks cover the
  array (Proof/RowBlocks.lean). No law beyond reading both sums at an index is used, so finiteness of the inputs is
  never needed for the value; the three frames are the generated runs, and the idealization rewrote no operation.
-/
import proofs.«108180_j12584254177709_2_alg».proof.Defs
import proofs.«108180_j12584254177709_2_alg».proof.Proof.Gen.Kernel
import proofs.«108180_j12584254177709_2_alg».proof.Proof.Gen.Kernel.Skeleton
import proofs.«108180_j12584254177709_2_alg».proof.Proof.Gen.Kernel.Launch
import proofs.«108180_j12584254177709_2_alg».proof.Proof.Gen.Kernel.Points
import proofs.«108180_j12584254177709_2_alg».proof.Proof.Gen.Kernel.Frame
import proofs.«108180_j12584254177709_2_alg».proof.Proof.Gen.KernelIdeal
import proofs.«108180_j12584254177709_2_alg».proof.Proof.Gen.KernelIdeal.Skeleton
import proofs.«108180_j12584254177709_2_alg».proof.Proof.Gen.KernelIdeal.Launch
import proofs.«108180_j12584254177709_2_alg».proof.Proof.Gen.KernelIdeal.Points
import proofs.«108180_j12584254177709_2_alg».proof.Proof.Gen.KernelIdeal.Frame
import proofs.«108180_j12584254177709_2_alg».proof.Proof.Gen.ReferenceIdeal
import proofs.«108180_j12584254177709_2_alg».proof.Proof.Gen.KernelIdeal.Value
import proofs.«108180_j12584254177709_2_alg».proof.Proof.Gen.ReferenceIdeal.Run
import proofs.«108180_j12584254177709_2_alg».proof.Proof.Gen.ReferenceIdeal.Read
import proofs.«108180_j12584254177709_2_alg».proof.Proof.Gen.Pre_finite_inputs
import proofs.«108180_j12584254177709_2_alg».proof.Proof.Projection
import proofs.«108180_j12584254177709_2_alg».proof.Proof.Propagation
import proofs.«108180_j12584254177709_2_alg».proof.Proof.BlockProduct
import proofs.«108180_j12584254177709_2_alg».proof.Proof.RowBlocks
import proofs.«108180_j12584254177709_2_alg».proof.Proof.ReferenceProjection
import proofs.«108180_j12584254177709_2_alg».proof.Proof.SamePropagation
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The idealized reference is a straight line of host operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the dense projection of
    the twice-propagated features: the kernel's block by block, the reference's in one product. -/
theorem algebraic : Cert.algebraic_KernelIdeal_ReferenceIdeal := by
  intro m ρ m' ρ' _ hagree
  refine ⟨fun c => Cert.KernelIdeal.RowBlocks.result m c, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v47_eq _ _ _ _ _).trans
    ((Cert.ReferenceIdeal.Projected.result_eq _ _ _ _ _).trans
      (congrArg (fun X => Cert.Proof.Projection.projected X _ _) (Cert.Proof.SamePropagation.features_eq _ _ _)))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
